-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x512 : Shape := ⟨2, ![1024, 512]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .local _ .vmem, ⟨0, _⟩ => ⟨S1024x512, .bf16⟩
  | .local _ .vmem, ⟨1, _⟩ => ⟨S1024x512, .bf16⟩
  | .local _ .vmem, ⟨2, _⟩ => ⟨S8192x512, .bf16⟩
  | .local _ .vmem, ⟨3, _⟩ => ⟨S1024x1, .f32⟩
  | .local _ .vmem, ⟨4, _⟩ => ⟨S1024x1, .f32⟩
  | .local _ .vmem, ⟨5, _⟩ => ⟨S1x8192, .f32⟩
  | .local _ .vmem, ⟨6, _⟩ => ⟨S1024x1024, .f32⟩
  | .local _ .vmem, ⟨7, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_mult2 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v5 : Index := Scalar.indexCast v1
  let c0_1 : Index := 0#32
  ![v5.toNat, 0]
def k0_off2 (i : grid0.Coords) : Fin 2 → Nat :=
  let c0_4 : Index := 0#32
  let arg1 : BitVec 32 := BitVec.ofNat 32 (i 1).val
  let c1024_i32 : BitVec 32 := 1024#32
  let v0 : BitVec 32 := Scalar.muli arg1 c1024_i32
  let v2 : BitVec 32 := v0
  let v10 : Index := Scalar.indexCast v2
  ![0, v10.toNat]
def k0_cond1 (i : grid0.Coords) : BitVec 1 :=
  let arg0 : BitVec 32 := BitVec.ofNat 32 (i 0).val
  let arg1 : BitVec 32 := BitVec.ofNat 32 (i 1).val
  let v23 : BitVec 1 := Scalar.cmpi .eq arg0 arg1
  let v24 : BitVec 32 := Scalar.extui v23
  let c0_i32 : BitVec 32 := 0#32
  let v25 : BitVec 1 := Scalar.cmpi .ne v24 c0_i32
  v25

def k0_cond2 (i : grid0.Coords) : BitVec 1 :=
  let arg0 : BitVec 32 := BitVec.ofNat 32 (i 0).val
  let arg1 : BitVec 32 := BitVec.ofNat 32 (i 1).val
  let v26 : BitVec 1 := Scalar.cmpi .ne arg0 arg1
  let v27 : BitVec 32 := Scalar.extui v26
  let c0_i32_7 : BitVec 32 := 0#32
  let v28 : BitVec 1 := Scalar.cmpi .ne v27 c0_i32_7
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S8192x512_S8192_d1 : S8192x512.ReducesTo [1] S8192
  h_S_ : 0 < S_.numel
  shapeCasts_S8192_S8192x1 : S8192.ShapeCasts S8192x1
  shapeCasts_S8192_S1x8192 : S8192.ShapeCasts S1x8192
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  k0_mult1_dvd : ∀ i : grid0.Coords, 16 ∣ (k0_mult1 i).toNat
  k0_mult2_dvd : ∀ i : grid0.Coords, 128 ∣ (k0_mult2 i).toNat
  k0_off1_inb : ∀ i : grid0.Coords, ∀ a, (k0_off1 i) a + S1024x512.size a ≤ S8192x512.size a
  k0_off2_inb : ∀ i : grid0.Coords, ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.KKit.lean ====
/-
  The program's launch side, stated once for the distance kernel: what the TensorCore's buffers hold when the one
  kernel region is entered (the host lines before it have cast the matrix to bf16, summed the squares of each row and
  laid the sums out as a column and as a row), each window's block at a grid point, what the body finds in each input
  window's buffer, the rectangles the body loads and stores through, and what each of its two cases leaves in the
  output window's buffer. The grid is 8 × 8; point (i, j) computes the 1024 × 1024 tile of distances between rows
  1024 i … 1024 i + 1023 and rows 1024 j … 1024 j + 1023. On a diagonal tile (i = j) the body stores an exact zero where
  the local row equals the local column; elsewhere it stores the plain distance.
-/
import proofs.«122518_j47253230191386_2_alg».proof.Proof.Gen.Kernel.Launch
import proofs.«122518_j47253230191386_2_alg».proof.Proof.Gen.Kernel.Skeleton
import proofs.«122518_j47253230191386_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the six host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the six host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, whenever the
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole row tile, the column tile's 1024 rows inside the resident matrix, the whole column of row norms, the
    1024 lanes of column norms inside the resident row, and the whole output tile. -/
abbrev r0_0 : Rect S1024x512 := Rect.unit (s := S1024x512) ![0, 0] S1024x512.size inb_S1024x512_S1024x512_0_0
abbrev r0_1 (i : grid0.Coords) : Rect S8192x512 := Rect.unit (s := S8192x512) (k0_off1 i) S1024x512.size (k0_off1_inb i)
abbrev r0_2 : Rect S1024x1 := Rect.unit (s := S1024x1) ![0, 0] S1024x1.size inb_S1024x1_S1024x1_0_0
abbrev r0_3 (i : grid0.Coords) : Rect S1x8192 := Rect.unit (s := S1x8192) (k0_off2 i) S1x1024.size (k0_off2_inb i)
abbrev r0_4 : Rect S1024x1024 := Rect.unit (s := S1024x1024) ![0, 0] S1024x1024.size inb_S1024x1024_S1024x1024_0_0

/-! ## What the body leaves in the output window's buffer -/

/-- On a diagonal tile: the one store of the distances with the exact zeros. -/
def out0_A (i : grid0.Coords) (x0 : Vec F S1024x512 .bf16) (x1 : Vec F S8192x512 .bf16) (x2 : Vec F S1024x1 .f32) (x3 : Vec F S1x8192 .f32) : Vec F S1024x1024 .f32 :=
  View.canon [⟨r0_4, k0_pay2 (View.ld x0 r0_0) (View.ld x1 (r0_1 i)) (View.ld x2 r0_2) (View.ld x3 (r0_3 i))⟩]

/-- Off the diagonal: the one store of the plain distances. -/
def out0_B (i : grid0.Coords) (x0 : Vec F S1024x512 .bf16) (x1 : Vec F S8192x512 .bf16) (x2 : Vec F S1024x1 .f32) (x3 : Vec F S1x8192 .f32) : Vec F S1024x1024 .f32 :=
  View.canon [⟨r0_4, k0_pay1 (View.ld x0 r0_0) (View.ld x1 (r0_1 i)) (View.ld x2 r0_2) (View.ld x3 (r0_3 i))⟩]

/-- One store of the whole tile covers it. -/
theorem cover0_4 (p0 : Vec F S1024x1024 .f32) (y : S1024x1024.Idx) :
    ∃ pc ∈ ([⟨r0_4, p0⟩] : List (View.Piece (Elt F) S1024x1024 .f32)), y ∈ pc.1.set :=
  View.cover_of_tiled [⟨r0_4, p0⟩] S1024x1024.size (by rfl) y

/-! ## The body's two branch conditions over the grid -/

/-- At every grid point exactly one of the two conditionals is taken: the first on the diagonal (the two grid
    coordinates equal), the second off it. -/
theorem cond_cases : ∀ t : Fin cfg0.N,
    (k0_cond1 (grid0.coords t) = 1#1 ∧ ¬ k0_cond2 (grid0.coords t) = 1#1) ∨ (¬ k0_cond1 (grid0.coords t) = 1#1 ∧ k0_cond2 (grid0.coords t) = 1#1) :=
  (by decide +kernel : ∀ t : Fin grid0.N,
    (k0_cond1 (grid0.coords t) = 1#1 ∧ ¬ k0_cond2 (grid0.coords t) = 1#1) ∨ (¬ k0_cond1 (grid0.coords t) = 1#1 ∧ k0_cond2 (grid0.coords t) = 1#1))

/-- So the output window is stored into at every point. -/
theorem live0_4 : ∀ t : Fin cfg0.N, idle0 4 (grid0.coords t) = false :=
  (by decide +kernel : ∀ t : Fin grid0.N, idle0 4 (grid0.coords t) = false)

/-- Each window's current staging memref at point `t`, as the pipeline passes it, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)

end Cert.Kernel.Hand

end
-- ==== Proof.KRunA.lean ====
/-
  The kernel body at a grid point on the diagonal of the grid: run on whole staging buffers, the four inputs at given contents and the
  output buffer at anything, it ends with the inputs as they were and the output buffer at the one whole-tile store of
  that case.
-/
import proofs.«122518_j47253230191386_2_alg».proof.Proof.KKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem sound_kernel_A (c : Dev nD) (E : Set ℕ) (i : grid0.Coords)
    (arg2 : Memref sig .tc .vmem S1024x512 .bf16) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S1x8192 .f32) (harg5 : arg5.IsWhole)
    (arg6 : Memref sig .tc .vmem S1024x1024 .f32) (harg6 : arg6.IsWhole)
    (hc1 : k0_cond1 i = 1#1) (hc2 : ¬ k0_cond2 i = 1#1)
    (x0 : Vec F S1024x512 .bf16) (x1 : Vec F S8192x512 .bf16) (x2 : Vec F S1024x1 .f32) (x3 : Vec F S1x8192 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_A i x0 x1 x2 x3)) -∗ K ⟨⟩))
      ⊢ wp frame (wpE (defs₀ (F := F)) Variants.none c none) E (cc0__eucl_kernel i arg2 harg2 arg3 harg3 arg4 harg4 arg5 harg5 arg6 harg6) K := by
  simp only [cc0__eucl_kernel_eq_skeleton]; unfold cc0__eucl_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

end Cert.Kernel.Hand

end
-- ==== Proof.KRunB.lean ====
/-
  The kernel body at a grid point off the diagonal of the grid: run on whole staging buffers, the four inputs at given contents and the
  output buffer at anything, it ends with the inputs as they were and the output buffer at the one whole-tile store of
  that case.
-/
import proofs.«122518_j47253230191386_2_alg».proof.Proof.KKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem sound_kernel_B (c : Dev nD) (E : Set ℕ) (i : grid0.Coords)
    (arg2 : Memref sig .tc .vmem S1024x512 .bf16) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S1x8192 .f32) (harg5 : arg5.IsWhole)
    (arg6 : Memref sig .tc .vmem S1024x1024 .f32) (harg6 : arg6.IsWhole)
    (hc1 : ¬ k0_cond1 i = 1#1) (hc2 : k0_cond2 i = 1#1)
    (x0 : Vec F S1024x512 .bf16) (x1 : Vec F S8192x512 .bf16) (x2 : Vec F S1024x1 .f32) (x3 : Vec F S1x8192 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_B i x0 x1 x2 x3)) -∗ K ⟨⟩))
      ⊢ wp frame (wpE (defs₀ (F := F)) Variants.none c none) E (cc0__eucl_kernel i arg2 harg2 arg3 harg3 arg4 harg4 arg5 harg5 arg6 harg6) K := by
  simp only [cc0__eucl_kernel_eq_skeleton]; unfold cc0__eucl_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

end Cert.Kernel.Hand

end
-- ==== Proof.KFrame.lean ====
/-
  The distance kernel's run as a whole: the proof data of its one pipeline (what each window's buffer holds after the
  body at each of the 64 grid points), the body's obligation at a generic point (a diagonal tile or not, as the two
  grid coordinates decide), and the launch. Two of the kernel's input windows read ONE array, the bf16 cast of the
  matrix: the row tile streams through it block by block while the column operand stages it whole; the array's
  ownership is therefore dealt between the two windows as its two half shares. Nothing but the output array is
  written, so the argument ends unchanged.
-/
import proofs.«122518_j47253230191386_2_alg».proof.Proof.KRunA
import proofs.«122518_j47253230191386_2_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output window's buffer holds after each point -/

/-- After the body at point `t`: the diagonal case's store where the two grid coordinates agree, the plain one
    elsewhere, each of the point's four input blocks. -/
def outAt0 (c : Dev nD) (t : Fin cfg0.N) : Vec F S1024x1024 .f32 :=
  if k0_cond1 (grid0.coords t) = 1#1 then out0_A (grid0.coords t) (iblk m c 0 t) (iblk m c 1 t) (iblk m c 2 t) (iblk m c 3 t)
  else out0_B (grid0.coords t) (iblk m c 0 t) (iblk m c 1 t) (iblk m c 2 t) (iblk m c 3 t)

theorem outAt0_A (c : Dev nD) (t : Fin cfg0.N) (h : k0_cond1 (grid0.coords t) = 1#1) :
    outAt0 m c t = out0_A (grid0.coords t) (iblk m c 0 t) (iblk m c 1 t) (iblk m c 2 t) (iblk m c 3 t) := if_pos h
theorem outAt0_B (c : Dev nD) (t : Fin cfg0.N) (h : ¬ k0_cond1 (grid0.coords t) = 1#1) :
    outAt0 m c t = out0_B (grid0.coords t) (iblk m c 0 t) (iblk m c 1 t) (iblk m c 2 t) (iblk m c 3 t) := if_neg h

/-! ## The pipeline's proof data -/

/-- The arrays as the region finds them; after the body each input's buffer at its block and the output's at
    `outAt0`; the invariant the core's scoped buffers the pipeline does not stage (none); nothing owed; the cast
    matrix held at its left half share by the row window and at its right half share by the column window, the two
    norm arrays outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt0 m c t
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The same, the output window's clause spelt as the library does for a window that may be idle at some points. -/
def bodyPostM (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (match idle0 4 (grid0.coords t) with
        | true =>
          match (cfg0.win 4).flush t with
          | false => iprop(∃ d, owns (c : Thread nD τ) (ms0_4 t) fullShare ((dats m 0 c).before 4 t d))
          | true => owns (c : Thread nD τ) (ms0_4 t) fullShare ((dats m 0 c).after 4 t)
        | false => owns (c : Thread nD τ) (ms0_4 t) fullShare ((dats m 0 c).after 4 t)))

theorem bodyPostM_eq (c : Dev nD) (t : Fin cfg0.N) : bodyPostM m c t = bodyPost m c t := by
  unfold bodyPostM bodyPost; rw [live0_4 t]

set_option maxHeartbeats 800000 in
/-- The body at any point: the inputs' buffers hold their blocks; the grid coordinates say which of the two cases
    the point is in; that case's run applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rcases cond_cases t with ⟨h1, h2⟩ | ⟨h1, h2⟩
  · rw [outAt0_A m c t h1]
    iintro ⟨HΦ, Ho, ⟨%d0, H0⟩, ⟨%d1, H1⟩, ⟨%d2, H2⟩, ⟨%d3, H3⟩, ⟨%d4, H4⟩⟩
    iapply (sound_kernel_A c Set.univ (grid0.coords t) _ _ _ _ _ _ _ _ _ _ h1 h2 (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outAt0_B m c t h1]
    iintro ⟨HΦ, Ho, ⟨%d0, H0⟩, ⟨%d1, H1⟩, ⟨%d2, H2⟩, ⟨%d3, H3⟩, ⟨%d4, H4⟩⟩
    iapply (sound_kernel_B c Set.univ (grid0.coords t) _ _ _ _ _ _ _ _ _ _ h1 h2 (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  have h := sound_body m c t
  rw [← bodyPostM_eq] at h
  exact h

/-! ## The arrays at entry: one array dealt to two windows -/

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl

/-- The buffers behind the windows' arrays, listed: four, the cast matrix being two windows'. -/
theorem arrBufs0_eq (c : Dev nD) (W : (b : Ref sig .tc) → Buf (Elt F) ((c.tc : Thread nD τ).loc b)) :
    (Pipeline.arrBufs spec0 c W : sProp 𝕄)
      = iprop((((c.tc : Thread nD τ).loc main_v0) ↦{fullShare} W main_v0) ∗ (((c.tc : Thread nD τ).loc main_v3) ↦{fullShare} W main_v3)
          ∗ (((c.tc : Thread nD τ).loc main_v4) ↦{fullShare} W main_v4) ∗ (((c.tc : Thread nD τ).loc main_v5) ↦{fullShare} W main_v5)) := by
  unfold Pipeline.arrBufs
  exact bigSep_eq_bigSepL_of_eq [main_v0, main_v3, main_v4, main_v5] (by decide) (by decide) _

/-- The four distinct buffers behind the five windows' arrays, each whole at the full share, make the pipeline's
    arrays at entry: the cast matrix's full share is its left half, for the row window, and its right half, for the
    column window. -/
theorem hsplit (c : Dev nD) :
    (Pipeline.arrBufs spec0 c (V m c) : sProp 𝕄) ⊢ (dats m 0 c).arrays ((dats m 0 c).arrAt · 0) := by
  have e : (dats m 0 c).arrays ((dats m 0 c).arrAt · 0)
      = bigSep Finset.univ fun w : Fin 5 => (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e, bigSep_W0, share0_0, share0_1, share0_2, share0_3, share0_4]
  rw [arrBufs0_eq]
  iintro ⟨H0, H3, H4, H5⟩
  ihave H01 := (pointsTo_share (PosShare.mem_left_op_right fullShare)).1 $$ H0
  icases H01 with ⟨Ha, Hb⟩
  isplitl [Ha]; · iexact Ha
  isplitl [Hb]; · iexact Hb
  isplitl [H3]; · iexact H3
  isplitl [H4]; · iexact H4
  iexact H5

/-! ## The run and the frame -/

set_option backward.isDefEq.respectTransparency.types false in
/-- Every weakly fair execution of @main terminates; at the end every array of the pipeline holds what the library
    computes from the proof data, and every other unscoped buffer what the region found in it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      show iprop(emp ∗ Pipeline.scopedRest spec0 c) ⊢ (Pipeline.scopedRest spec0 c : sProp 𝕄)
      iintro ⟨-, H⟩; iexact H)
    (hout := fun c => by
      show (Pipeline.scopedRest spec0 c : sProp 𝕄) ⊢ iprop(emp ∗ Pipeline.scopedRest spec0 c)
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the argument array ends as it was launched (no window stages it, and no host operation writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c))
    (run_main m ρ)

end Cert.Kernel.Hand

end
-- ==== Proof.KIKit.lean ====
/-
  The program's launch side, stated once for the distance kernel: what the TensorCore's buffers hold when the one
  kernel region is entered (the host lines before it have cast the matrix to bf16, summed the squares of each row and
  laid the sums out as a column and as a row), each window's block at a grid point, what the body finds in each input
  window's buffer, the rectangles the body loads and stores through, and what each of its two cases leaves in the
  output window's buffer. The grid is 8 × 8; point (i, j) computes the 1024 × 1024 tile of distances between rows
  1024 i … 1024 i + 1023 and rows 1024 j … 1024 j + 1023. On a diagonal tile (i = j) the body stores an exact zero where
  the local row equals the local column; elsewhere it stores the plain distance.
-/
import proofs.«122518_j47253230191386_2_alg».proof.Proof.Gen.KernelIdeal.Launch
import proofs.«122518_j47253230191386_2_alg».proof.Proof.Gen.KernelIdeal.Skeleton
import proofs.«122518_j47253230191386_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the six host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the six host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, whenever the
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole row tile, the column tile's 1024 rows inside the resident matrix, the whole column of row norms, the
    1024 lanes of column norms inside the resident row, and the whole output tile. -/
abbrev r0_0 : Rect S1024x512 := Rect.unit (s := S1024x512) ![0, 0] S1024x512.size inb_S1024x512_S1024x512_0_0
abbrev r0_1 (i : grid0.Coords) : Rect S8192x512 := Rect.unit (s := S8192x512) (k0_off1 i) S1024x512.size (k0_off1_inb i)
abbrev r0_2 : Rect S1024x1 := Rect.unit (s := S1024x1) ![0, 0] S1024x1.size inb_S1024x1_S1024x1_0_0
abbrev r0_3 (i : grid0.Coords) : Rect S1x8192 := Rect.unit (s := S1x8192) (k0_off2 i) S1x1024.size (k0_off2_inb i)
abbrev r0_4 : Rect S1024x1024 := Rect.unit (s := S1024x1024) ![0, 0] S1024x1024.size inb_S1024x1024_S1024x1024_0_0

/-! ## What the body leaves in the output window's buffer -/

/-- On a diagonal tile: the one store of the distances with the exact zeros. -/
def out0_A (i : grid0.Coords) (x0 : Vec F S1024x512 .bf16) (x1 : Vec F S8192x512 .bf16) (x2 : Vec F S1024x1 .f32) (x3 : Vec F S1x8192 .f32) : Vec F S1024x1024 .f32 :=
  View.canon [⟨r0_4, k0_pay2 (View.ld x0 r0_0) (View.ld x1 (r0_1 i)) (View.ld x2 r0_2) (View.ld x3 (r0_3 i))⟩]

/-- Off the diagonal: the one store of the plain distances. -/
def out0_B (i : grid0.Coords) (x0 : Vec F S1024x512 .bf16) (x1 : Vec F S8192x512 .bf16) (x2 : Vec F S1024x1 .f32) (x3 : Vec F S1x8192 .f32) : Vec F S1024x1024 .f32 :=
  View.canon [⟨r0_4, k0_pay1 (View.ld x0 r0_0) (View.ld x1 (r0_1 i)) (View.ld x2 r0_2) (View.ld x3 (r0_3 i))⟩]

/-- One store of the whole tile covers it. -/
theorem cover0_4 (p0 : Vec F S1024x1024 .f32) (y : S1024x1024.Idx) :
    ∃ pc ∈ ([⟨r0_4, p0⟩] : List (View.Piece (Elt F) S1024x1024 .f32)), y ∈ pc.1.set :=
  View.cover_of_tiled [⟨r0_4, p0⟩] S1024x1024.size (by rfl) y

/-! ## The body's two branch conditions over the grid -/

/-- At every grid point exactly one of the two conditionals is taken: the first on the diagonal (the two grid
    coordinates equal), the second off it. -/
theorem cond_cases : ∀ t : Fin cfg0.N,
    (k0_cond1 (grid0.coords t) = 1#1 ∧ ¬ k0_cond2 (grid0.coords t) = 1#1) ∨ (¬ k0_cond1 (grid0.coords t) = 1#1 ∧ k0_cond2 (grid0.coords t) = 1#1) :=
  (by decide +kernel : ∀ t : Fin grid0.N,
    (k0_cond1 (grid0.coords t) = 1#1 ∧ ¬ k0_cond2 (grid0.coords t) = 1#1) ∨ (¬ k0_cond1 (grid0.coords t) = 1#1 ∧ k0_cond2 (grid0.coords t) = 1#1))

/-- So the output window is stored into at every point. -/
theorem live0_4 : ∀ t : Fin cfg0.N, idle0 4 (grid0.coords t) = false :=
  (by decide +kernel : ∀ t : Fin grid0.N, idle0 4 (grid0.coords t) = false)

/-- Each window's current staging memref at point `t`, as the pipeline passes it, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KIRunA.lean ====
/-
  The kernel body at a grid point on the diagonal of the grid: run on whole staging buffers, the four inputs at given contents and the
  output buffer at anything, it ends with the inputs as they were and the output buffer at the one whole-tile store of
  that case.
-/
import proofs.«122518_j47253230191386_2_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem sound_kernel_A (c : Dev nD) (E : Set ℕ) (i : grid0.Coords)
    (arg2 : Memref sig .tc .vmem S1024x512 .bf16) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S1x8192 .f32) (harg5 : arg5.IsWhole)
    (arg6 : Memref sig .tc .vmem S1024x1024 .f32) (harg6 : arg6.IsWhole)
    (hc1 : k0_cond1 i = 1#1) (hc2 : ¬ k0_cond2 i = 1#1)
    (x0 : Vec F S1024x512 .bf16) (x1 : Vec F S8192x512 .bf16) (x2 : Vec F S1024x1 .f32) (x3 : Vec F S1x8192 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_A i x0 x1 x2 x3)) -∗ K ⟨⟩))
      ⊢ wp frame (wpE (defs₀ (F := F)) Variants.none c none) E (cc0__eucl_kernel i arg2 harg2 arg3 harg3 arg4 harg4 arg5 harg5 arg6 harg6) K := by
  simp only [cc0__eucl_kernel_eq_skeleton]; unfold cc0__eucl_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

end Cert.KernelIdeal.Hand

end
-- ==== Proof.KIRunB.lean ====
/-
  The kernel body at a grid point off the diagonal of the grid: run on whole staging buffers, the four inputs at given contents and the
  output buffer at anything, it ends with the inputs as they were and the output buffer at the one whole-tile store of
  that case.
-/
import proofs.«122518_j47253230191386_2_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem sound_kernel_B (c : Dev nD) (E : Set ℕ) (i : grid0.Coords)
    (arg2 : Memref sig .tc .vmem S1024x512 .bf16) (harg2 : arg2.IsWhole) (arg3 : Memref sig .tc .vmem S8192x512 .bf16) (harg3 : arg3.IsWhole)
    (arg4 : Memref sig .tc .vmem S1024x1 .f32) (harg4 : arg4.IsWhole) (arg5 : Memref sig .tc .vmem S1x8192 .f32) (harg5 : arg5.IsWhole)
    (arg6 : Memref sig .tc .vmem S1024x1024 .f32) (harg6 : arg6.IsWhole)
    (hc1 : ¬ k0_cond1 i = 1#1) (hc2 : k0_cond2 i = 1#1)
    (x0 : Vec F S1024x512 .bf16) (x1 : Vec F S8192x512 .bf16) (x2 : Vec F S1024x1 .f32) (x3 : Vec F S1x8192 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_B i x0 x1 x2 x3)) -∗ K ⟨⟩))
      ⊢ wp frame (wpE (defs₀ (F := F)) Variants.none c none) E (cc0__eucl_kernel i arg2 harg2 arg3 harg3 arg4 harg4 arg5 harg5 arg6 harg6) K := by
  simp only [cc0__eucl_kernel_eq_skeleton]; unfold cc0__eucl_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

end Cert.KernelIdeal.Hand

end
-- ==== Proof.KIFrame.lean ====
/-
  The distance kernel's run as a whole: the proof data of its one pipeline (what each window's buffer holds after the
  body at each of the 64 grid points), the body's obligation at a generic point (a diagonal tile or not, as the two
  grid coordinates decide), and the launch. Two of the kernel's input windows read ONE array, the bf16 cast of the
  matrix: the row tile streams through it block by block while the column operand stages it whole; the array's
  ownership is therefore dealt between the two windows as its two half shares. Nothing but the output array is
  written, so the argument ends unchanged.
-/
import proofs.«122518_j47253230191386_2_alg».proof.Proof.KIRunA
import proofs.«122518_j47253230191386_2_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output window's buffer holds after each point -/

/-- After the body at point `t`: the diagonal case's store where the two grid coordinates agree, the plain one
    elsewhere, each of the point's four input blocks. -/
def outAt0 (c : Dev nD) (t : Fin cfg0.N) : Vec F S1024x1024 .f32 :=
  if k0_cond1 (grid0.coords t) = 1#1 then out0_A (grid0.coords t) (iblk m c 0 t) (iblk m c 1 t) (iblk m c 2 t) (iblk m c 3 t)
  else out0_B (grid0.coords t) (iblk m c 0 t) (iblk m c 1 t) (iblk m c 2 t) (iblk m c 3 t)

theorem outAt0_A (c : Dev nD) (t : Fin cfg0.N) (h : k0_cond1 (grid0.coords t) = 1#1) :
    outAt0 m c t = out0_A (grid0.coords t) (iblk m c 0 t) (iblk m c 1 t) (iblk m c 2 t) (iblk m c 3 t) := if_pos h
theorem outAt0_B (c : Dev nD) (t : Fin cfg0.N) (h : ¬ k0_cond1 (grid0.coords t) = 1#1) :
    outAt0 m c t = out0_B (grid0.coords t) (iblk m c 0 t) (iblk m c 1 t) (iblk m c 2 t) (iblk m c 3 t) := if_neg h

/-! ## The pipeline's proof data -/

/-- The arrays as the region finds them; after the body each input's buffer at its block and the output's at
    `outAt0`; the invariant the core's scoped buffers the pipeline does not stage (none); nothing owed; the cast
    matrix held at its left half share by the row window and at its right half share by the column window, the two
    norm arrays outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt0 m c t
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The same, the output window's clause spelt as the library does for a window that may be idle at some points. -/
def bodyPostM (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (match idle0 4 (grid0.coords t) with
        | true =>
          match (cfg0.win 4).flush t with
          | false => iprop(∃ d, owns (c : Thread nD τ) (ms0_4 t) fullShare ((dats m 0 c).before 4 t d))
          | true => owns (c : Thread nD τ) (ms0_4 t) fullShare ((dats m 0 c).after 4 t)
        | false => owns (c : Thread nD τ) (ms0_4 t) fullShare ((dats m 0 c).after 4 t)))

theorem bodyPostM_eq (c : Dev nD) (t : Fin cfg0.N) : bodyPostM m c t = bodyPost m c t := by
  unfold bodyPostM bodyPost; rw [live0_4 t]

set_option maxHeartbeats 800000 in
/-- The body at any point: the inputs' buffers hold their blocks; the grid coordinates say which of the two cases
    the point is in; that case's run applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rcases cond_cases t with ⟨h1, h2⟩ | ⟨h1, h2⟩
  · rw [outAt0_A m c t h1]
    iintro ⟨HΦ, Ho, ⟨%d0, H0⟩, ⟨%d1, H1⟩, ⟨%d2, H2⟩, ⟨%d3, H3⟩, ⟨%d4, H4⟩⟩
    iapply (sound_kernel_A c Set.univ (grid0.coords t) _ _ _ _ _ _ _ _ _ _ h1 h2 (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outAt0_B m c t h1]
    iintro ⟨HΦ, Ho, ⟨%d0, H0⟩, ⟨%d1, H1⟩, ⟨%d2, H2⟩, ⟨%d3, H3⟩, ⟨%d4, H4⟩⟩
    iapply (sound_kernel_B c Set.univ (grid0.coords t) _ _ _ _ _ _ _ _ _ _ h1 h2 (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  have h := sound_body m c t
  rw [← bodyPostM_eq] at h
  exact h

/-! ## The arrays at entry: one array dealt to two windows -/

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl

/-- The buffers behind the windows' arrays, listed: four, the cast matrix being two windows'. -/
theorem arrBufs0_eq (c : Dev nD) (W : (b : Ref sig .tc) → Buf (Elt F) ((c.tc : Thread nD τ).loc b)) :
    (Pipeline.arrBufs spec0 c W : sProp 𝕄)
      = iprop((((c.tc : Thread nD τ).loc main_v0) ↦{fullShare} W main_v0) ∗ (((c.tc : Thread nD τ).loc main_v3) ↦{fullShare} W main_v3)
          ∗ (((c.tc : Thread nD τ).loc main_v4) ↦{fullShare} W main_v4) ∗ (((c.tc : Thread nD τ).loc main_v5) ↦{fullShare} W main_v5)) := by
  unfold Pipeline.arrBufs
  exact bigSep_eq_bigSepL_of_eq [main_v0, main_v3, main_v4, main_v5] (by decide) (by decide) _

/-- The four distinct buffers behind the five windows' arrays, each whole at the full share, make the pipeline's
    arrays at entry: the cast matrix's full share is its left half, for the row window, and its right half, for the
    column window. -/
theorem hsplit (c : Dev nD) :
    (Pipeline.arrBufs spec0 c (V m c) : sProp 𝕄) ⊢ (dats m 0 c).arrays ((dats m 0 c).arrAt · 0) := by
  have e : (dats m 0 c).arrays ((dats m 0 c).arrAt · 0)
      = bigSep Finset.univ fun w : Fin 5 => (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e, bigSep_W0, share0_0, share0_1, share0_2, share0_3, share0_4]
  rw [arrBufs0_eq]
  iintro ⟨H0, H3, H4, H5⟩
  ihave H01 := (pointsTo_share (PosShare.mem_left_op_right fullShare)).1 $$ H0
  icases H01 with ⟨Ha, Hb⟩
  isplitl [Ha]; · iexact Ha
  isplitl [Hb]; · iexact Hb
  isplitl [H3]; · iexact H3
  isplitl [H4]; · iexact H4
  iexact H5

/-! ## The run and the frame -/

set_option backward.isDefEq.respectTransparency.types false in
/-- Every weakly fair execution of @main terminates; at the end every array of the pipeline holds what the library
    computes from the proof data, and every other unscoped buffer what the region found in it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      show iprop(emp ∗ Pipeline.scopedRest spec0 c) ⊢ (Pipeline.scopedRest spec0 c : sProp 𝕄)
      iintro ⟨-, H⟩; iexact H)
    (hout := fun c => by
      show (Pipeline.scopedRest spec0 c : sProp 𝕄) ⊢ iprop(emp ∗ Pipeline.scopedRest spec0 c)
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the argument array ends as it was launched (no window stages it, and no host operation writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c))
    (run_main m ρ)

end Cert.KernelIdeal.Hand

end
-- ==== Proof.Spec.lean ====
/-
  Pairwise Euclidean distances between the rows of an 8192 × 512 matrix, on the extended reals.

  For rows r and c the squared distance is expanded as |x_r|² + |x_c|² − 2 ⟨x_r, x_c⟩, clamped below at 0 and square-rooted
  (`dist`). A second form (`kdist`) puts an exact 0 on the diagonal r = c; for a matrix of real entries the two agree, since
  then ⟨x_r, x_r⟩ = |x_r|² is a real number s and s + s − 2 s = 0.
-/
import Idealize.ShloMosaic.PureOps.Ideal
import Idealize.ShloMosaic.PureOps.Ideal.Laws
import Idealize.ShloMosaic.Lib.ValueIdx

noncomputable section

namespace Cert.Eucl

open Idealize.ShloMosaic Idealize.ShloMosaic.ValueIdx

/-- The matrix's shape and the result's. -/
abbrev SX : Shape := ⟨2, ![8192, 512]⟩
abbrev SO : Shape := ⟨2, ![8192, 8192]⟩

/-- The squared norm of row `r`. -/
def sq (x : SX.Idx → EReal) (r : Fin 8192) : EReal := ∑ k : Fin 512, x (ix2 r k) * x (ix2 r k)

/-- The inner product of rows `r` and `c`. -/
def gram (x : SX.Idx → EReal) (r c : Fin 8192) : EReal := ∑ k : Fin 512, x (ix2 r k) * x (ix2 c k)

/-- The literal 2.0. -/
def two : EReal := Ideal.ofBits .f32 0x40000000#32

/-- The distance between rows `r` and `c`, by the expanded square. -/
def dist (x : SX.Idx → EReal) (r c : Fin 8192) : EReal :=
  Ideal.sqrt (max (sq x r + sq x c - two * gram x r c) 0)

/-- The same with an exact zero on the diagonal. -/
def kdist (x : SX.Idx → EReal) (r c : Fin 8192) : EReal := if r = c then 0 else dist x r c

/-- The whole distance matrix, index by index. -/
def D (x : SX.Idx → EReal) : SO.Idx → EReal := fun j => dist x (j 0) (j 1)

/-- The whole matrix with the exact diagonal. -/
def KD (x : SX.Idx → EReal) : SO.Idx → EReal := fun j => kdist x (j 0) (j 1)

theorem D_ix2 (x : SX.Idx → EReal) (r c : Fin 8192) : D x (ix2 r c) = dist x r c := rfl
theorem KD_ix2 (x : SX.Idx → EReal) (r c : Fin 8192) : KD x (ix2 r c) = kdist x r c := rfl

end Cert.Eucl

end
-- ==== Proof.Payload.lean ====
/-
  The kernel's two payloads read at an index, on the extended reals.

  The first payload is, entry by entry, sqrt (max (a_p + b_q − 2 · ⟨x_p, y_q⟩) 0): the column a and the row b are each
  copied across the tile, the inner product is a contraction of axis 1 of both operands into a zero accumulator, and the
  remaining operations act entry by entry. The second payload replaces the diagonal p = q of the first by an exact zero:
  its mask compares the row number with the column number, both below 1024 and so faithfully represented in 32 bits.
-/
import proofs.«122518_j47253230191386_2_alg».proof.Proof.Gen.KernelIdeal.Skeleton
import proofs.«122518_j47253230191386_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-! ## The two copies across the tile -/

/-- A column [1024, 1] copied across [1024, 1024] reads, at (p, q), the column at p. -/
theorem bcast_col_apply (v : FVec Ideal S1024x1 .f32) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ =>
    show p.val = if (1024 : Nat) = 1 then 0 else p.val
    rw [if_neg (by decide)]
  | ⟨1, _⟩ => rfl

/-- A row [1, 1024] copied across [1024, 1024] reads, at (p, q), the row at q. -/
theorem bcast_row_apply (v : FVec Ideal S1x1024 .f32) (h : S1x1024.Broadcasts S1024x1024) (p q : Fin 1024) :
    broadcastTo S1024x1024 v h (ix2 p q) = v (ix2 (0 : Fin 1) q) :=
  broadcastTo_1b_ab_apply v h p q

/-! ## The contraction -/

/-- The left operand's index keeps the output's row … -/
theorem lhs_0 (i : S1024x1024.Idx) (c : dot_S1024x512_S1024x512_S1024x1024_1_1_0_0_n_n.contr.Idx) :
    (dot_S1024x512_S1024x512_S1024x1024_1_1_0_0_n_n.lhsIdx i c 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
/-- … and runs over the contracted position on axis 1. -/
theorem lhs_1 (i : S1024x1024.Idx) (c : dot_S1024x512_S1024x512_S1024x1024_1_1_0_0_n_n.contr.Idx) :
    (dot_S1024x512_S1024x512_S1024x1024_1_1_0_0_n_n.lhsIdx i c 1).val = (c ⟨0, by decide⟩).val :=
  dot_S1024x512_S1024x512_S1024x1024_1_1_0_0_n_n.lhsIdx_val_of_single rfl i c
/-- The right operand's index takes the output's column as its row … -/
theorem rhs_0 (i : S1024x1024.Idx) (c : dot_S1024x512_S1024x512_S1024x1024_1_1_0_0_n_n.contr.Idx) :
    (dot_S1024x512_S1024x512_S1024x1024_1_1_0_0_n_n.rhsIdx i c 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
/-- … and runs over the contracted position on axis 1 as well. -/
theorem rhs_1 (i : S1024x1024.Idx) (c : dot_S1024x512_S1024x512_S1024x1024_1_1_0_0_n_n.contr.Idx) :
    (dot_S1024x512_S1024x512_S1024x1024_1_1_0_0_n_n.rhsIdx i c 1).val = (c ⟨0, by decide⟩).val :=
  dot_S1024x512_S1024x512_S1024x1024_1_1_0_0_n_n.rhsIdx_val_of_single rfl i c

/-- The product into a zero accumulator, contracting axis 1 of both operands, is at (p, q) the inner product of row p
    of the left operand with row q of the right. -/
theorem gram_apply (A B : FVec Ideal S1024x512 .bf16) (p q : Fin 1024) :
    matmul dot_S1024x512_S1024x512_S1024x1024_1_1_0_0_n_n none A B (constant S1024x1024 .f32 0x00000000#32) (ix2 p q)
      = ∑ k : Fin 512, A (ix2 p k) * B (ix2 q k) := by
  simp only [matmul]
  rw [Ideal.matmul_constant_zero_apply,
    ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q)
      ((contrEquiv1 dot_S1024x512_S1024x512_S1024x1024_1_1_0_0_n_n 512 rfl rfl).symm k) = ix2 p k :=
    funext fun a => Fin.ext (by
      match a with
      | ⟨0, _⟩ => exact lhs_0 _ _
      | ⟨1, _⟩ => exact (lhs_1 _ _).trans hk)
  have er : dot_S1024x512_S1024x512_S1024x1024_1_1_0_0_n_n.rhsIdx (ix2 p q)
      ((contrEquiv1 dot_S1024x512_S1024x512_S1024x1024_1_1_0_0_n_n 512 rfl rfl).symm k) = ix2 q k :=
    funext fun a => Fin.ext (by
      match a with
      | ⟨0, _⟩ => exact rhs_0 _ _
      | ⟨1, _⟩ => exact (rhs_1 _ _).trans hk)
  rw [el, er]

/-! ## The first payload -/

theorem pay1_apply (v3 v6 : Vec Ideal S1024x512 .bf16) (v8 : Vec Ideal S1024x1 .f32) (v11 : Vec Ideal S1x1024 .f32)
    (p q : Fin 1024) :
    k0_pay1 (F := Ideal) v3 v6 v8 v11 (ix2 p q)
      = Ideal.sqrt (max (v8 (ix2 p (0 : Fin 1)) + v11 (ix2 (0 : Fin 1) q)
          - Cert.Eucl.two * ∑ k : Fin 512, v3 (ix2 p k) * v6 (ix2 q k)) 0) := by
  unfold k0_pay1
  simp only [shapeCast_self]
  unfold Cert.Eucl.two
  show Ideal.sqrt (max (broadcastTo S1024x1024 v8 broadcasts_S1024x1_S1024x1024 (ix2 p q)
        + broadcastTo S1024x1024 v11 broadcasts_S1x1024_S1024x1024 (ix2 p q)
        - Ideal.ofBits .f32 0x40000000#32
          * matmul (F := Ideal) dot_S1024x512_S1024x512_S1024x1024_1_1_0_0_n_n none v3 v6
              (constant (F := Ideal) S1024x1024 .f32 0x00000000#32) (ix2 p q))
      (Ideal.ofBits .f32 0x00000000#32)) = _
  rw [bcast_col_apply, bcast_row_apply, gram_apply, Ideal.ofBits_zero_f32]

/-! ## The second payload -/

/-- The row number of (p, q), as a 32-bit word. -/
theorem iota0_apply (h : S1024x1024.Iotas .tc 32 [0]) (p q : Fin 1024) :
    iota .tc S1024x1024 32 [0] h (ix2 p q) = BitVec.ofNat 32 p.val :=
  iota_single_apply .tc S1024x1024 32 0 h (ix2 p q)

/-- The column number of (p, q), as a 32-bit word. -/
theorem iota1_apply (h : S1024x1024.Iotas .tc 32 [1]) (p q : Fin 1024) :
    iota .tc S1024x1024 32 [1] h (ix2 p q) = BitVec.ofNat 32 q.val :=
  iota_single_apply .tc S1024x1024 32 1 h (ix2 p q)

/-- Two numbers below 1024 have equal 32-bit words exactly when they are equal: 1024 < 2 ^ 32, so neither wraps. -/
theorem cmpi_eq_ofNat (p q : Fin 1024) :
    IntOp.cmpi .eq (BitVec.ofNat 32 p.val) (BitVec.ofNat 32 q.val) = if p = q then 1#1 else 0#1 := by
  show BitVec.ofBool (BitVec.ofNat 32 p.val == BitVec.ofNat 32 q.val) = _
  by_cases h : p = q
  · subst h
    rw [if_pos rfl, beq_self_eq_true]
    rfl
  · rw [if_neg h]
    have hne : (BitVec.ofNat 32 p.val == BitVec.ofNat 32 q.val) = false := by
      rw [beq_eq_false_iff_ne]
      intro e
      apply h
      have e' := congrArg BitVec.toNat e
      rw [BitVec.toNat_ofNat, BitVec.toNat_ofNat,
        Nat.mod_eq_of_lt (Nat.lt_trans p.isLt (by decide)), Nat.mod_eq_of_lt (Nat.lt_trans q.isLt (by decide))] at e'
      exact Fin.ext e'
    rw [hne]
    rfl

theorem pay2_apply (v3 v6 : Vec Ideal S1024x512 .bf16) (v8 : Vec Ideal S1024x1 .f32) (v11 : Vec Ideal S1x1024 .f32)
    (p q : Fin 1024) :
    k0_pay2 (F := Ideal) v3 v6 v8 v11 (ix2 p q)
      = if p = q then 0 else k0_pay1 (F := Ideal) v3 v6 v8 v11 (ix2 p q) := by
  unfold k0_pay2
  generalize k0_pay1 (F := Ideal) v3 v6 v8 v11 = Y
  show Scalar.select
      (IntOp.cmpi .eq (iota .tc S1024x1024 32 [0] iota_S1024x1024_d0_w32 (ix2 p q))
        (iota .tc S1024x1024 32 [1] iota_S1024x1024_d1_w32 (ix2 p q)))
      (Ideal.ofBits .f32 0x00000000#32) (Y (ix2 p q)) = _
  rw [iota0_apply, iota1_apply, cmpi_eq_ofNat, Ideal.ofBits_zero_f32]
  by_cases h : p = q
  · rw [if_pos h, if_pos h]
    exact select_one _ _
  · rw [if_neg h, if_neg h]
    exact select_zero _ _

end Cert.KernelIdeal.PayValue

end
-- ==== Proof.KIValue.lean ====
/-
  What the distance kernel's output array holds after the run, at the ideal instance.

  Grid point t = (I, J) writes back the 1024 × 1024 tile at block (I, J) of the 8192 × 8192 result. Its entry at local
  (p, q) is computed from row 1024 I + p of the row operand and of the column of row norms, and from row 1024 J + q of
  the resident column operand and lane 1024 J + q of the resident row of norms: the clamped, square-rooted
  |x_r|² + |x_c|² − 2 ⟨x_r, x_c⟩ at the global indices r = 1024 I + p, c = 1024 J + q. On a diagonal tile (I = J) the
  exact zero stored where p = q is the zero at r = c; off the diagonal r ≠ c throughout. The 64 tiles cover the array,
  so the array ends holding that one function of the region-entry arrays.
-/
import proofs.«122518_j47253230191386_2_alg».proof.Proof.KIFrame
import proofs.«122518_j47253230191386_2_alg».proof.Proof.Payload
import proofs.«122518_j47253230191386_2_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-! ## The kernel's function of the arrays the region finds -/

/-- Entry (r, c): zero on the diagonal, else the clamped square root of the expanded square, from the cast matrix
    `xb`, the column of row norms `s3` and the row of row norms `s4`. -/
def kg (xb : S8192x512.Idx → EReal) (s3 : S8192x1.Idx → EReal) (s4 : S1x8192.Idx → EReal) (r c : Fin 8192) : EReal :=
  if r = c then 0
  else Ideal.sqrt (max (s3 (ix2 r (0 : Fin 1)) + s4 (ix2 (0 : Fin 1) c) - Cert.Eucl.two * ∑ k : Fin 512, xb (ix2 r k) * xb (ix2 c k)) 0)

def KG (xb : S8192x512.Idx → EReal) (s3 : S8192x1.Idx → EReal) (s4 : S1x8192.Idx → EReal) : S8192x8192.Idx → EReal :=
  fun i => kg xb s3 s4 (i 0) (i 1)

/-! ## One tile, over literal index types -/

/-- A diagonal tile: local row p is global row R p, local column q is global column C q, and R p = C q exactly
    when p = q. -/
theorem tileA (xb : S8192x512.Idx → EReal) (s3 : S8192x1.Idx → EReal) (s4 : S1x8192.Idx → EReal)
    (x0 x1 : Vec Ideal S1024x512 .bf16) (x2 : Vec Ideal S1024x1 .f32) (x3 : Vec Ideal S1x1024 .f32)
    (R C : Fin 1024 → Fin 8192)
    (h0 : ∀ (p : Fin 1024) (k : Fin 512), x0 (ix2 p k) = xb (ix2 (R p) k))
    (h1 : ∀ (q : Fin 1024) (k : Fin 512), x1 (ix2 q k) = xb (ix2 (C q) k))
    (h2 : ∀ p : Fin 1024, x2 (ix2 p (0 : Fin 1)) = s3 (ix2 (R p) (0 : Fin 1)))
    (h3 : ∀ q : Fin 1024, x3 (ix2 (0 : Fin 1) q) = s4 (ix2 (0 : Fin 1) (C q)))
    (hd : ∀ p q : Fin 1024, R p = C q ↔ p = q) (j : S1024x1024.Idx) :
    k0_pay2 (F := Ideal) x0 x1 x2 x3 j = kg xb s3 s4 (R (j 0)) (C (j 1)) := by
  obtain ⟨p, q, rfl⟩ : ∃ (p q : Fin 1024), j = ix2 p q := ⟨j 0, j 1, eq_ix2 j⟩
  show k0_pay2 (F := Ideal) x0 x1 x2 x3 (ix2 p q) = kg xb s3 s4 (R p) (C q)
  rw [PayValue.pay2_apply, PayValue.pay1_apply]
  unfold kg
  by_cases hpq : p = q
  · rw [if_pos hpq, if_pos ((hd p q).mpr hpq)]
  · rw [if_neg hpq, if_neg (fun h => hpq ((hd p q).mp h)), h2, h3]
    simp only [h0, h1]

/-- An off-diagonal tile: no global row of the tile is a global column of it. -/
theorem tileB (xb : S8192x512.Idx → EReal) (s3 : S8192x1.Idx → EReal) (s4 : S1x8192.Idx → EReal)
    (x0 x1 : Vec Ideal S1024x512 .bf16) (x2 : Vec Ideal S1024x1 .f32) (x3 : Vec Ideal S1x1024 .f32)
    (R C : Fin 1024 → Fin 8192)
    (h0 : ∀ (p : Fin 1024) (k : Fin 512), x0 (ix2 p k) = xb (ix2 (R p) k))
    (h1 : ∀ (q : Fin 1024) (k : Fin 512), x1 (ix2 q k) = xb (ix2 (C q) k))
    (h2 : ∀ p : Fin 1024, x2 (ix2 p (0 : Fin 1)) = s3 (ix2 (R p) (0 : Fin 1)))
    (h3 : ∀ q : Fin 1024, x3 (ix2 (0 : Fin 1) q) = s4 (ix2 (0 : Fin 1) (C q)))
    (hd : ∀ p q : Fin 1024, R p ≠ C q) (j : S1024x1024.Idx) :
    k0_pay1 (F := Ideal) x0 x1 x2 x3 j = kg xb s3 s4 (R (j 0)) (C (j 1)) := by
  obtain ⟨p, q, rfl⟩ : ∃ (p q : Fin 1024), j = ix2 p q := ⟨j 0, j 1, eq_ix2 j⟩
  show k0_pay1 (F := Ideal) x0 x1 x2 x3 (ix2 p q) = kg xb s3 s4 (R p) (C q)
  rw [PayValue.pay1_apply]
  unfold kg
  rw [if_neg (hd p q), h2, h3]
  simp only [h0, h1]

/-! ## The printed index maps over the grid -/

/-- Decided once over the 64 points: the row tile and the column of norms move with the output's block row; the
    resident operands sit at block 0; the body's two computed offsets are 1024 times the output's block column; the
    first conditional holds exactly where block row and block column agree; both are below 8. -/
theorem idx_facts : ∀ t : Fin cfg0.N,
    win0_0.index t (0 : Fin 2) = win0_4.index t (0 : Fin 2) ∧ win0_0.index t (1 : Fin 2) = 0
  ∧ win0_1.index t (0 : Fin 2) = 0 ∧ win0_1.index t (1 : Fin 2) = 0
  ∧ win0_2.index t (0 : Fin 2) = win0_4.index t (0 : Fin 2) ∧ win0_2.index t (1 : Fin 2) = 0
  ∧ win0_3.index t (0 : Fin 2) = 0 ∧ win0_3.index t (1 : Fin 2) = 0
  ∧ k0_off1 (grid0.coords t) (0 : Fin 2) = win0_4.index t (1 : Fin 2) * 1024 ∧ k0_off1 (grid0.coords t) (1 : Fin 2) = 0
  ∧ k0_off2 (grid0.coords t) (0 : Fin 2) = 0 ∧ k0_off2 (grid0.coords t) (1 : Fin 2) = win0_4.index t (1 : Fin 2) * 1024
  ∧ (k0_cond1 (grid0.coords t) = 1#1 ↔ win0_4.index t (0 : Fin 2) = win0_4.index t (1 : Fin 2))
  ∧ win0_4.index t (0 : Fin 2) ≤ 7 ∧ win0_4.index t (1 : Fin 2) ≤ 7 :=
  (by decide +kernel : ∀ t : Fin grid0.N, _)

/-- Every block of the result is some point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-- The global row of local row `p` of point `t`'s tile, and the global column of its local column `q`. -/
def Rw (t : Fin cfg0.N) (p : Fin 1024) : Fin 8192 :=
  ⟨win0_4.index t (0 : Fin 2) * 1024 + p.val, by have := (idx_facts t).2.2.2.2.2.2.2.2.2.2.2.2.2.1; have := p.isLt; omega⟩
def Cl (t : Fin cfg0.N) (q : Fin 1024) : Fin 8192 :=
  ⟨win0_4.index t (1 : Fin 2) * 1024 + q.val, by have := (idx_facts t).2.2.2.2.2.2.2.2.2.2.2.2.2.2; have := q.isLt; omega⟩

/-! ## The four input blocks at a point, read off the region-entry arrays -/

theorem blk0_apply (c : Dev nD) (t : Fin cfg0.N) (p : Fin 1024) (k : Fin 512) :
    iblk m c 0 t (ix2 p k) = V m c main_v0 (ix2 (Rw t p) k) := by
  obtain ⟨e0, e1, -⟩ := idx_facts t
  show V m c main_v0 (((cfg0.win 0).blk t).view.emb (ix2 p k)) = V m c main_v0 (ix2 (Rw t p) k)
  refine congrArg (V m c main_v0) ?_
  funext a; apply Fin.ext
  match a with
  | ⟨0, _⟩ => show win0_0.index t (0 : Fin 2) * 1024 + 1 * p.val = win0_4.index t (0 : Fin 2) * 1024 + p.val; omega
  | ⟨1, _⟩ => show win0_0.index t (1 : Fin 2) * 512 + 1 * k.val = k.val; omega

theorem blk1_apply (c : Dev nD) (t : Fin cfg0.N) (q : Fin 1024) (k : Fin 512) :
    View.ld (iblk m c 1 t) (r0_1 (grid0.coords t)) (ix2 q k) = V m c main_v0 (ix2 (Cl t q) k) := by
  obtain ⟨-, -, e2, e3, -, -, -, -, e8, e9, -⟩ := idx_facts t
  show V m c main_v0 (((cfg0.win 1).blk t).view.emb ((r0_1 (grid0.coords t)).emb (ix2 q k))) = V m c main_v0 (ix2 (Cl t q) k)
  refine congrArg (V m c main_v0) ?_
  funext a; apply Fin.ext
  match a with
  | ⟨0, _⟩ => show win0_1.index t (0 : Fin 2) * 8192 + 1 * (k0_off1 (grid0.coords t) (0 : Fin 2) + 1 * q.val) = win0_4.index t (1 : Fin 2) * 1024 + q.val; omega
  | ⟨1, _⟩ => show win0_1.index t (1 : Fin 2) * 512 + 1 * (k0_off1 (grid0.coords t) (1 : Fin 2) + 1 * k.val) = k.val; omega

theorem blk2_apply (c : Dev nD) (t : Fin cfg0.N) (p : Fin 1024) :
    iblk m c 2 t (ix2 p (0 : Fin 1)) = V m c main_v3 (ix2 (Rw t p) (0 : Fin 1)) := by
  obtain ⟨-, -, -, -, e4, e5, -⟩ := idx_facts t
  show V m c main_v3 (((cfg0.win 2).blk t).view.emb (ix2 p (0 : Fin 1))) = V m c main_v3 (ix2 (Rw t p) (0 : Fin 1))
  refine congrArg (V m c main_v3) ?_
  funext a; apply Fin.ext
  match a with
  | ⟨0, _⟩ => show win0_2.index t (0 : Fin 2) * 1024 + 1 * p.val = win0_4.index t (0 : Fin 2) * 1024 + p.val; omega
  | ⟨1, _⟩ => show win0_2.index t (1 : Fin 2) * 1 + 1 * 0 = 0; omega

theorem blk3_apply (c : Dev nD) (t : Fin cfg0.N) (q : Fin 1024) :
    View.ld (iblk m c 3 t) (r0_3 (grid0.coords t)) (ix2 (0 : Fin 1) q) = V m c main_v4 (ix2 (0 : Fin 1) (Cl t q)) := by
  obtain ⟨-, -, -, -, -, -, e6, e7, -, -, e10, e11, -⟩ := idx_facts t
  show V m c main_v4 (((cfg0.win 3).blk t).view.emb ((r0_3 (grid0.coords t)).emb (ix2 (0 : Fin 1) q))) = V m c main_v4 (ix2 (0 : Fin 1) (Cl t q))
  refine congrArg (V m c main_v4) ?_
  funext a; apply Fin.ext
  match a with
  | ⟨0, _⟩ => show win0_3.index t (0 : Fin 2) * 1 + 1 * (k0_off2 (grid0.coords t) (0 : Fin 2) + 1 * 0) = 0; omega
  | ⟨1, _⟩ => show win0_3.index t (1 : Fin 2) * 8192 + 1 * (k0_off2 (grid0.coords t) (1 : Fin 2) + 1 * q.val) = win0_4.index t (1 : Fin 2) * 1024 + q.val; omega

/-! ## What a point writes back -/

theorem Rw_eq_Cl_iff (t : Fin cfg0.N) (h : win0_4.index t (0 : Fin 2) = win0_4.index t (1 : Fin 2)) (p q : Fin 1024) :
    Rw t p = Cl t q ↔ p = q := by
  constructor
  · intro e; have := congrArg Fin.val e; apply Fin.ext; show p.val = q.val
    have e' : win0_4.index t (0 : Fin 2) * 1024 + p.val = win0_4.index t (1 : Fin 2) * 1024 + q.val := this
    omega
  · rintro rfl; apply Fin.ext
    show win0_4.index t (0 : Fin 2) * 1024 + p.val = win0_4.index t (1 : Fin 2) * 1024 + p.val
    omega

theorem Rw_ne_Cl (t : Fin cfg0.N) (h : ¬ win0_4.index t (0 : Fin 2) = win0_4.index t (1 : Fin 2)) (p q : Fin 1024) :
    Rw t p ≠ Cl t q := by
  intro e; have := congrArg Fin.val e
  have e' : win0_4.index t (0 : Fin 2) * 1024 + p.val = win0_4.index t (1 : Fin 2) * 1024 + q.val := this
  have hp := p.isLt; have hq := q.isLt
  omega

/-- The global index of an entry of point `t`'s tile. -/
theorem emb4 (t : Fin cfg0.N) (j : S1024x1024.Idx) :
    ((cfg0.win 4).blk t).view.emb j = ix2 (Rw t (j 0)) (Cl t (j 1)) := by
  funext a; apply Fin.ext
  match a with
  | ⟨0, _⟩ => show win0_4.index t (0 : Fin 2) * 1024 + 1 * (j 0).val = win0_4.index t (0 : Fin 2) * 1024 + (j 0).val; omega
  | ⟨1, _⟩ => show win0_4.index t (1 : Fin 2) * 1024 + 1 * (j 1).val = win0_4.index t (1 : Fin 2) * 1024 + (j 1).val; omega

/-- WHAT POINT `t` WRITES BACK is block `t` of `KG` of the arrays as the region finds them. -/
theorem flushed_eq (c : Dev nD) (t : Fin cfg0.N) :
    (dats m 0 c).flushed 4 t = ((cfg0.win 4).blk t).view.read (Elt Ideal) (KG (V m c main_v0) (V m c main_v3) (V m c main_v4)) := by
  show (cfg0.win 4).cut (grid0.coords t) ((dats m 0 c).after 4 t) = _
  rw [after0_4]
  have hc := (idx_facts t).2.2.2.2.2.2.2.2.2.2.2.2.1
  by_cases h1 : k0_cond1 (grid0.coords t) = 1#1
  · rw [outAt0_A m c t h1]
    unfold out0_A
    rw [View.canon_unit_zero hz]
    simp only [View.ld_unit_zero (S := S1024x512) hz, View.ld_unit_zero (S := S1024x1) hz]
    funext j
    show k0_pay2 (F := Ideal) (iblk m c 0 t) (View.ld (iblk m c 1 t) (r0_1 (grid0.coords t))) (iblk m c 2 t) (View.ld (iblk m c 3 t) (r0_3 (grid0.coords t))) j
      = KG (V m c main_v0) (V m c main_v3) (V m c main_v4) (((cfg0.win 4).blk t).view.emb j)
    rw [emb4 t j]
    exact tileA (V m c main_v0) (V m c main_v3) (V m c main_v4) _ _ _ _ (Rw t) (Cl t)
      (blk0_apply m c t) (blk1_apply m c t) (blk2_apply m c t) (blk3_apply m c t) (Rw_eq_Cl_iff t (hc.mp h1)) j
  · rw [outAt0_B m c t h1]
    unfold out0_B
    rw [View.canon_unit_zero hz]
    simp only [View.ld_unit_zero (S := S1024x512) hz, View.ld_unit_zero (S := S1024x1) hz]
    funext j
    show k0_pay1 (F := Ideal) (iblk m c 0 t) (View.ld (iblk m c 1 t) (r0_1 (grid0.coords t))) (iblk m c 2 t) (View.ld (iblk m c 3 t) (r0_3 (grid0.coords t))) j
      = KG (V m c main_v0) (V m c main_v3) (V m c main_v4) (((cfg0.win 4).blk t).view.emb j)
    rw [emb4 t j]
    exact tileB (V m c main_v0) (V m c main_v3) (V m c main_v4) _ _ _ _ (Rw t) (Cl t)
      (blk0_apply m c t) (blk1_apply m c t) (blk2_apply m c t) (blk3_apply m c t) (Rw_ne_Cl t (fun h => h1 (hc.mpr h))) j

/-! ## The tiles cover the array -/

theorem mem_blk4 (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5).slice (win0_4.rect t)).set ↔ _
  rw [View.set_slice_whole, Rect.mem_set_unit]
  exact Iff.rfl

theorem cover4 (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE ARRAY after the run. -/
theorem final (c : Dev nD) :
    (dats m 0 c).arrAt 4 cfg0.N = KG (V m c main_v0) (V m c main_v3) (V m c main_v4) :=
  (dats m 0 c).arrAt_eq_of_cover 4 _ (fun t _ => flushed_eq m c t) cover4

end Cert.KernelIdeal.KValue

end
-- ==== Proof.KIHost.lean ====
/-
  What the host lines before the kernel region leave in the three arrays the region reads, on the extended reals.

  The cast of the matrix to the narrower float format changes nothing there, so the first array is the matrix itself.
  The other two hold the row sums of squares: entry r of the length-8192 vector of sums is
  ∑ k, x (r, k) · x (r, k), the initial value of the sum being an exact zero; laid out as a column the entry sits at
  (r, 0), laid out as a row at (0, r), since both layouts keep the row-major position r.
-/
import proofs.«122518_j47253230191386_2_alg».proof.Proof.KIKit
import proofs.«122518_j47253230191386_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostValue

open Cert.KernelIdeal Cert.KernelIdeal.Gen Cert.KernelIdeal.Hand
open Idealize.ShloMosaic Idealize.ShloMosaic.TcCoe Idealize.ShloMosaic.ValueIdx

/-! ## The row sums of squares as one vector -/

/-- The host's sum over the second axis, from an exact zero, of the entrywise square of `x`. -/
def rowSq (x : (⟨S8192x512, .f32⟩ : BufTy).Contents (Elt Ideal)) : (⟨S8192, .f32⟩ : BufTy).Contents (Elt Ideal) :=
  Host.reduceAdd (F := Ideal) (mulf x x) (constant (F := Ideal) S_ .f32 0x00000000#32) reducesTo_S8192x512_S8192_d1 h_S_

/-- The host's sum over the second axis from an exact zero, at row `r`: the sum of that row's 512 entries. -/
theorem reduce_apply (y : (⟨S8192x512, .f32⟩ : BufTy).Contents (Elt Ideal)) (r : Fin 8192) :
    Host.reduceAdd (F := Ideal) y (constant (F := Ideal) S_ .f32 0x00000000#32) reducesTo_S8192x512_S8192_d1 h_S_ (ix1 r)
      = ∑ k : Fin 512, (y : S8192x512.Idx → EReal) (ix2 r k) := by
  simp only [Host.reduceAdd, Ideal.hostReduceAdd_def]
  rw [Ideal.hostReduceAdd_single reducesTo_S8192x512_S8192_d1 (by decide)]
  have h0 : (constant (F := Ideal) S_ .f32 0x00000000#32) (Shape.Idx.first h_S_) = (0 : EReal) := Ideal.ofBits_zero_f32
  rw [h0, zero_add]
  refine Finset.sum_congr rfl fun k _ => ?_
  exact congrArg y (funext fun a => Fin.ext (by match a with | ⟨0, _⟩ => rfl | ⟨1, _⟩ => rfl))

/-- Entry `r` of the vector of sums is the squared norm of row `r`. -/
theorem rowSq_apply (x : (⟨S8192x512, .f32⟩ : BufTy).Contents (Elt Ideal)) (r : Fin 8192) :
    rowSq x (ix1 r) = Cert.Eucl.sq x r := by
  unfold rowSq
  rw [reduce_apply]
  rfl

/-- The vector laid out as a column: the entry at `(r, 0)` is entry `r`, the row-major position being `r · 1 + 0`. -/
theorem col_apply (y : S8192.Idx → EReal) (r : Fin 8192) :
    shapeCast S8192x1 y shapeCasts_S8192_S8192x1 (ix2 r (0 : Fin 1)) = y (ix1 r) :=
  shapeCast_apply y shapeCasts_S8192_S8192x1 _ _ (by
    rw [Shape.rowMajor_val_two, Shape.rowMajor_val_one]
    show r.val = r.val * 1 + 0
    omega)

/-- The vector laid out as a row: the entry at `(0, r)` is entry `r`, the row-major position being `0 · 8192 + r`. -/
theorem row_apply (y : S8192.Idx → EReal) (r : Fin 8192) :
    shapeCast S1x8192 y shapeCasts_S8192_S1x8192 (ix2 (0 : Fin 1) r) = y (ix1 r) :=
  shapeCast_apply y shapeCasts_S8192_S1x8192 _ _ (by
    rw [Shape.rowMajor_val_two, Shape.rowMajor_val_one]
    show r.val = 0 * 8192 + r.val
    omega)

/-! ## The three arrays as the region finds them -/

variable (m : (ℓ : Loc nD τ sig) → Buf (Elt Ideal) ℓ) (c : Dev nD)

/-- The cast to the narrower format is the identity on the extended reals: the first array is the matrix. -/
theorem V_v0 : (V m c main_v0 : S8192x512.Idx → EReal) = (m ((c : Thread nD τ).loc main_arg0) : S8192x512.Idx → EReal) := by
  have e : (V m c main_v0 : S8192x512.Idx → EReal)
      = truncf (F := Ideal) .bf16 (m ((c : Thread nD τ).loc main_arg0) : (⟨S8192x512, .f32⟩ : BufTy).Contents (Elt Ideal)) bitsLt_bf16_f32 := by
    dsimp only [Hand.V, Gen.hostOps0]; after_results
  rw [e]
  rfl

/-- The column of row norms: at `(r, 0)` the squared norm of row `r`. -/
theorem V_v3 (r : Fin 8192) :
    (V m c main_v3 : S8192x1.Idx → EReal) (ix2 r (0 : Fin 1)) = Cert.Eucl.sq (m ((c : Thread nD τ).loc main_arg0)) r := by
  have e : (V m c main_v3 : S8192x1.Idx → EReal)
      = shapeCast S8192x1 (rowSq (m ((c : Thread nD τ).loc main_arg0))) shapeCasts_S8192_S8192x1 := by
    dsimp only [Hand.V, Gen.hostOps0]; after_results; rfl
  rw [e, col_apply, rowSq_apply]

/-- The row of row norms: at `(0, r)` the squared norm of row `r`. -/
theorem V_v4 (r : Fin 8192) :
    (V m c main_v4 : S1x8192.Idx → EReal) (ix2 (0 : Fin 1) r) = Cert.Eucl.sq (m ((c : Thread nD τ).loc main_arg0)) r := by
  have e : (V m c main_v4 : S1x8192.Idx → EReal)
      = shapeCast S1x8192 (rowSq (m ((c : Thread nD τ).loc main_arg0))) shapeCasts_S8192_S1x8192 := by
    dsimp only [Hand.V, Gen.hostOps0]; after_results; rfl
  rw [e, row_apply, rowSq_apply]

end Cert.KernelIdeal.HostValue

end
-- ==== Proof.RefValue.lean ====
/-
  The reference's result is the distance matrix of the specification.

  Read one operation at a time, the reference squares the entries and sums each row (the squared norms), forms all inner
  products of two rows, adds the squared norms of rows r and c, subtracts twice the inner product, clamps at 0 and takes
  the square root. The two broadcasts of the squared norms read row r and row c; the sums start from the literal 0.
-/
import proofs.«122518_j47253230191386_2_alg».proof.Proof.Gen.ReferenceIdeal.Read
import proofs.«122518_j47253230191386_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The row-sum feeding the column broadcast reads row r of the matrix. -/
theorem idx_row (r c : Fin 8192) (k : Fin 512) :
    idx_main_v1 (idx_main_v3 (idx_main_v5 (ix2 r c))) k = ix2 r k :=
  funext fun a => Fin.ext (by match a with | ⟨0, _⟩ => rfl | ⟨1, _⟩ => rfl)

/-- The row-sum feeding the row broadcast reads row c of the matrix. -/
theorem idx_col (r c : Fin 8192) (k : Fin 512) :
    idx_main_v1 (idx_main_v4 (idx_main_v6 (ix2 r c))) k = ix2 c k :=
  funext fun a => Fin.ext (by match a with | ⟨0, _⟩ => rfl | ⟨1, _⟩ => rfl)

/-- The inner product's left factor reads row r. -/
theorem lidx_eq (r c : Fin 8192) (k : Fin 512) : lidx_main_v2 (ix2 r c) k = ix2 r k :=
  funext fun a => Fin.ext (by match a with | ⟨0, _⟩ => rfl | ⟨1, _⟩ => rfl)

/-- The inner product's right factor reads row c. -/
theorem ridx_eq (r c : Fin 8192) (k : Fin 512) : ridx_main_v2 (ix2 r c) k = ix2 c k :=
  funext fun a => Fin.ext (by match a with | ⟨0, _⟩ => rfl | ⟨1, _⟩ => rfl)

/-- The reference's last stage is the distance matrix. -/
theorem ref_eq_D (x0 : (⟨S8192x512, .f32⟩ : BufTy).Contents (Elt Ideal)) :
    val_main_v13 (F := Ideal) x0 = Cert.Eucl.D x0 := by
  funext i
  obtain ⟨r, c, rfl⟩ : ∃ (r c : Fin 8192), i = ix2 r c := ⟨i 0, i 1, eq_ix2 i⟩
  rw [Cert.Eucl.D_ix2]
  rw [val_main_v13_apply, val_main_v12_apply, val_main_v10_apply, val_main_v7_apply, val_main_v5_apply,
    val_main_v3_apply, val_main_v1_apply, val_main_v6_apply, val_main_v4_apply, val_main_v1_apply, val_main_v9_apply,
    val_main_v8_apply, val_main_cst_0_apply, val_main_v2_apply, val_main_v11_apply, val_main_cst_1_apply,
    val_main_cst_apply]
  simp only [val_main_v0_apply, idx_row, idx_col, lidx_eq, ridx_eq, Ideal.hostUnary_sqrt_def, Ideal.maximumf_def,
    Ideal.subf_def, Ideal.addf_def, Ideal.mulf_def, Ideal.ofBits_def, Ideal.ofBits_zero_f32, zero_add]
  rfl

/-- The reference's run with its result named: every weakly fair execution terminates with the result buffer holding the
    distance matrix of the argument's launch contents, the argument unchanged. -/
theorem run_D (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = Cert.Eucl.D (m ((c.tc : Thread nD τ).loc main_arg0))
      ∧ r.2.mem ((c.tc : Thread nD τ).loc main_arg0) = m ((c.tc : Thread nD τ).loc main_arg0) :=
  (θ_run defs _ _).mono (fun _ h c => ⟨by rw [(h c).1, val_main_v13_eq, ref_eq_D], (h c).2⟩)
    (Cert.ReferenceIdeal.Value.run (F := Ideal) m ρ)

end Cert.ReferenceIdeal.RefValue

end
-- ==== Proof.LibRealEntries.lean ====
/-
  Real entries on the extended reals: what a proof needs when the law joining two programs holds on the reals but fails at
  the infinities (distributivity, cancelling, moving a factor across a sum).

  * `AllReal f`: every value of f is a real number.
  * `coe_sum`: the coercion of a finite sum of reals is the sum of the coercions.
  * `sum_mul_real`: a finite sum of products of real entries is a real.
  * `add_mul_real`: (a + b) * c = a * c + b * c for real a, b, c.
  * `allReal_of_reduce`, generic in the array's shape: if the "and" over all axes of the comparisons |v i| < +infinity is 1,
    every entry of v is a real — one array's part of the precondition "every float input is finite". An extended real whose
    absolute value max z (-z) is strictly below the top is neither infinity (both have absolute value top), hence a real.
-/
import Idealize.ShloMosaic.PureOps.Ideal
import Idealize.ShloMosaic.PureOps.Ideal.Laws
import Idealize.ShloMosaic.Lib.ValueIdx
import Idealize.ShloMosaic.Lib.ReduceAll

noncomputable section

namespace Cert.RealEntries

open Idealize.ShloMosaic
open scoped BigOperators

/-! ## Real entries and their arithmetic -/

/-- Every value of `f` is a real number (neither infinity). -/
def AllReal {ι : Type} (f : ι → EReal) : Prop := ∀ i, ∃ r : ℝ, f i = (r : EReal)

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of real entries is a real. -/
theorem sum_mul_real {ι : Type} (s : Finset ι) (f g : ι → EReal) (hf : AllReal f) (hg : AllReal g) :
    ∃ r : ℝ, ∑ k ∈ s, f k * g k = (r : EReal) := by
  choose f' hf' using hf
  choose g' hg' using hg
  refine ⟨∑ k ∈ s, f' k * g' k, ?_⟩
  rw [coe_sum]
  exact Finset.sum_congr rfl fun k _ => by rw [hf', hg', EReal.coe_mul]

/-- The distributive law on real entries: it is the reals' own. (On the extended reals it fails at the infinities: for a
    negative real x, (top + bot) * x = top while top * x + bot * x = bot.) -/
theorem add_mul_real {a b c : EReal} (ha : ∃ r : ℝ, a = (r : EReal)) (hb : ∃ r : ℝ, b = (r : EReal))
    (hc : ∃ r : ℝ, c = (r : EReal)) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-! ## From "every entry is finite" to "every entry is a real" -/

/-- The single-precision pattern `0x7F800000` denotes +infinity. -/
theorem ofBits_inf : Ideal.ofBits .f32 0x7F800000#32 = (⊤ : EReal) := by
  simp [Ideal.ofBits, Ideal.ieee]

/-- An extended real whose absolute value `max z (-z)` compares strictly below +infinity is a real:
    both infinities have absolute value `⊤`. -/
theorem real_of_abs_lt_inf (z : EReal)
    (h : Ideal.cmp .olt (max z (-z)) (Ideal.ofBits .f32 0x7F800000#32) = 1#1) : ∃ r : ℝ, z = (r : EReal) := by
  rw [ofBits_inf] at h
  induction z using EReal.rec with
  | bot => simp [Ideal.cmp] at h
  | coe r => exact ⟨r, rfl⟩
  | top => simp [Ideal.cmp] at h

/-- The scalar shape has exactly one index. -/
instance scalarIdx_subsingleton : Subsingleton (⟨0, ![]⟩ : Shape).Idx :=
  ⟨fun a b => funext fun d => d.elim0⟩

/-- One array's part of the predicate, for any shape: if the "and" over all axes of the comparisons
    `|v i| < +inf` is 1, every entry of `v` is a real. -/
theorem allReal_of_reduce {S T U C : Shape} [Subsingleton T.Idx] {axes : List (Fin S.rank)}
    (hr : S.ReducesTo axes T) (hu : 0 < U.numel) (dims : Fin C.rank → Fin S.rank) (hb : C.BroadcastsInDim S dims)
    (v : FVec Ideal S .f32) (init : IVec U 1) (j : T.Idx)
    (e : Host.reduce IntOp.andi
          (cmpf .olt (Host.absf v) (broadcastInDim S dims hb (constant C .f32 0x7F800000#32))) init hr hu j = 1#1) :
    ∀ i, ∃ r : ℝ, v i = (r : EReal) := by
  intro i
  have h1 : Ideal.cmp .olt (max (v i) (-(v i))) (Ideal.ofBits .f32 0x7F800000#32) = 1#1 :=
    Host.reduce_andi_all _ init hr hu j e i
  exact real_of_abs_lt_inf (v i) h1

end Cert.RealEntries

end
-- ==== Proof.Finite.lean ====
/-
  From the precondition "every entry of the matrix is finite" to "every entry is a real number".

  The precondition compares the absolute value of each entry with +infinity and takes the conjunction over both axes.
  If that conjunction is 1, each comparison is 1, and an extended real whose absolute value is strictly below +infinity
  is neither infinity, hence a real.
-/
import proofs.«122518_j47253230191386_2_alg».proof.Pre_finite_inputs
import proofs.«122518_j47253230191386_2_alg».proof.Proof.LibRealEntries

noncomputable section

namespace Cert.Eucl

open Idealize.ShloMosaic

/-- If the finiteness predicate holds of the matrix, every entry is a real number. -/
theorem real_of_pre [Cert.Pre_finite_inputs.Facts] (x : FVec Ideal Cert.Pre_finite_inputs.S8192x512 .f32)
    (h : Cert.Pre_finite_inputs.fn (F := Ideal) x = fun _ => 1#1) : ∀ i, ∃ r : ℝ, x i = (r : EReal) := by
  have e := congrFun h ValueIdx.ix0
  dsimp only [Cert.Pre_finite_inputs.fn] at e
  exact Cert.RealEntries.allReal_of_reduce _ _ _ _ x _ ValueIdx.ix0 e

end Cert.Eucl

end
-- ==== Proof.Diag.lean ====
/-
  On a matrix of real entries the distance of a row to itself is exactly 0, so the distance matrix with an exact zero
  diagonal is the distance matrix.

  For a row r the inner product of the row with itself is its squared norm, a finite sum of products of reals, hence a
  real number s. The expanded square is s + s - 2 s = 0 in the reals (on the extended reals this cancellation would fail
  at an infinite s), its clamp at 0 is 0, and the square root of 0 is 0.
-/
import proofs.«122518_j47253230191386_2_alg».proof.Proof.Spec
import proofs.«122518_j47253230191386_2_alg».proof.Proof.LibRealEntries

noncomputable section

namespace Cert.Eucl

open Idealize.ShloMosaic Idealize.ShloMosaic.ValueIdx

/-- The single-precision pattern `0x40000000` denotes the real number 2. -/
theorem two_eq : two = ((2 : ℝ) : EReal) := by
  simp [two, Ideal.ofBits, Ideal.ieee]
  rw [← EReal.coe_mul]
  exact congrArg _ (by norm_num)

/-- The inner product of a row with itself is its squared norm: the same sum. -/
theorem gram_self (x : SX.Idx → EReal) (r : Fin 8192) : gram x r r = sq x r := rfl

/-- The squared norm of a row of real entries is a real. -/
theorem sq_real (x : SX.Idx → EReal) (hx : ∀ i, ∃ r : ℝ, x i = (r : EReal)) (r : Fin 8192) :
    ∃ s : ℝ, sq x r = (s : EReal) :=
  Cert.RealEntries.sum_mul_real Finset.univ (fun k : Fin 512 => x (ix2 r k)) (fun k : Fin 512 => x (ix2 r k))
    (fun k => hx (ix2 r k)) (fun k => hx (ix2 r k))

/-- For a real s, s + s - 2 s = 0 on the extended reals. -/
theorem cancel_real (s : ℝ) : ((s : EReal) + (s : EReal) - ((2 : ℝ) : EReal) * (s : EReal)) = 0 := by
  rw [← EReal.coe_add, ← EReal.coe_mul, ← EReal.coe_sub, ← EReal.coe_zero]
  exact congrArg _ (by ring)

/-- The square root of 0 is 0. -/
theorem sqrt_zero : Ideal.sqrt (0 : EReal) = 0 := by
  rw [← EReal.coe_zero, Ideal.sqrt_coe, if_neg (lt_irrefl _), Real.sqrt_zero]

/-- The distance of a row of real entries to itself is 0. -/
theorem dist_self (x : SX.Idx → EReal) (hx : ∀ i, ∃ r : ℝ, x i = (r : EReal)) (r : Fin 8192) : dist x r r = 0 := by
  obtain ⟨s, hs⟩ := sq_real x hx r
  unfold dist
  rw [gram_self, hs, two_eq, cancel_real, max_self, sqrt_zero]

/-- On a matrix of real entries the matrix with the exact diagonal is the distance matrix. -/
theorem KD_eq_D (x : SX.Idx → EReal) (hx : ∀ i, ∃ r : ℝ, x i = (r : EReal)) : KD x = D x := by
  funext j
  obtain ⟨r, c, rfl⟩ : ∃ (r c : Fin 8192), j = ix2 r c := ⟨j 0, j 1, eq_ix2 j⟩
  rw [KD_ix2, D_ix2]
  unfold kdist
  split_ifs with h
  · subst h
    exact (dist_self x hx r).symm
  · rfl

end Cert.Eucl

end
-- ==== Proof.lean ====
/-
  The certificate of the pairwise-distance kernel against its reference.

  Both programs compute, for an 8192 × 512 matrix x, the 8192 × 8192 matrix of √(max(|x_r|² + |x_c|² − 2 ⟨x_r, x_c⟩, 0)).
  The kernel works tile by tile on an 8 × 8 grid, reads the matrix through a bf16 cast (the identity on the extended
  reals) and the row norms from a column and a row prepared on the host, and on the diagonal tiles stores an exact 0 at
  r = c. The reference computes the plain formula everywhere. For a matrix of REAL entries — which is what the
  precondition says — ⟨x_r, x_r⟩ = |x_r|² is a real s and s + s − 2 s = 0, so the reference's diagonal is 0 as well and
  the two results are equal entry by entry; at an infinite entry the cancellation would fail, which is where the
  precondition is used.

  The three frames: each kernel program's run is proved from the body's two cases (a diagonal tile or not) and a launch
  in which the cast matrix, read by two windows, is held by each at a half share; the reference is a straight line of
  host operations. The ideal pass rewrote nothing, so the idealization claim is trivial.
-/
import proofs.«122518_j47253230191386_2_alg».proof.Defs
import proofs.«122518_j47253230191386_2_alg».proof.Proof.Gen.Kernel
import proofs.«122518_j47253230191386_2_alg».proof.Proof.Gen.KernelIdeal
import proofs.«122518_j47253230191386_2_alg».proof.Proof.Gen.ReferenceIdeal
import proofs.«122518_j47253230191386_2_alg».proof.Proof.Gen.Pre_finite_inputs
import proofs.«122518_j47253230191386_2_alg».proof.Proof.Gen.ReferenceIdeal.Run
import proofs.«122518_j47253230191386_2_alg».proof.Proof.KFrame
import proofs.«122518_j47253230191386_2_alg».proof.Proof.KIFrame
import proofs.«122518_j47253230191386_2_alg».proof.Proof.KIValue
import proofs.«122518_j47253230191386_2_alg».proof.Proof.KIHost
import proofs.«122518_j47253230191386_2_alg».proof.Proof.RefValue
import proofs.«122518_j47253230191386_2_alg».proof.Proof.Finite
import proofs.«122518_j47253230191386_2_alg».proof.Proof.Diag
import Idealize.ShloMosaic.Adequacy
import Idealize.ShloMosaic.Init

noncomputable section

namespace Cert.Proof

open Idealize.ShloMosaic Idealize.ShloMosaic.TcCoe Idealize.SL.Sem

/-! ## The kernel's result as a function of the argument -/

section
open Cert.KernelIdeal Cert.KernelIdeal.Gen Cert.KernelIdeal.Hand Cert.KernelIdeal.KValue Idealize.ShloMosaic.ValueIdx

/-- What the region finds is the argument itself (the bf16 cast is the identity on the extended reals) and its row
    norms twice, so the kernel's function of the region-entry arrays is the distance matrix with the exact diagonal. -/
theorem KG_eq_KD (m : (ℓ : Loc nD τ sig) → Buf (Elt Ideal) ℓ) (c : Dev nD) :
    KG (V m c main_v0) (V m c main_v3) (V m c main_v4) = Cert.Eucl.KD (m ((c : Thread nD τ).loc main_arg0)) := by
  funext i
  obtain ⟨r, q, rfl⟩ : ∃ (r q : Fin 8192), i = ix2 r q := ⟨i 0, i 1, eq_ix2 i⟩
  show kg (V m c main_v0) (V m c main_v3) (V m c main_v4) r q = Cert.Eucl.kdist (m ((c : Thread nD τ).loc main_arg0)) r q
  unfold kg Cert.Eucl.kdist Cert.Eucl.dist
  rw [HostValue.V_v3 m c, HostValue.V_v4 m c, HostValue.V_v0 m c]
  rfl

end

/-! ## The claims -/

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the distance matrix of the common argument: the kernel's array is the matrix with the exact
    diagonal, which for real entries is the plain one; the reference's is the plain one. -/
theorem algebraic : Cert.algebraic_KernelIdeal_ReferenceIdeal := by
  intro m ρ m' ρ' hpre hagree
  refine ⟨fun c => Cert.Eucl.D (m ((c.tc : Thread Cert.KernelIdeal.nD Cert.KernelIdeal.τ).loc Cert.KernelIdeal.main_arg0)), ?_, ?_⟩
  · refine (θ_run (Cert.KernelIdeal.defs (F := Ideal)) _ _).mono (fun r h c => ⟨?_, ?_⟩) (Cert.KernelIdeal.Hand.run_main m ρ)
    · exact (((h c).1 4).trans (Cert.KernelIdeal.KValue.final m c)).trans
        ((KG_eq_KD m c).trans (Cert.Eucl.KD_eq_D _ (Cert.Eucl.real_of_pre _ (hpre c))))
    · exact ((h c).2 Cert.KernelIdeal.main_arg0 (Pipeline.mem_restRefs_of Cert.KernelIdeal.main_arg0 (by decide) (by decide))).trans
        (Cert.KernelIdeal.Hand.V_main_arg0 m c)
  · refine (θ_run (Cert.ReferenceIdeal.defs (F := Ideal)) _ _).mono (fun r h c => ⟨?_, (h c).2⟩)
      (Cert.ReferenceIdeal.RefValue.run_D m' ρ')
    rw [(h c).1, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
